-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S3x128x128 .f32) (main_arg3 : FVec F S3x128 .f32) (main_arg4 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 103
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1x128x128, .f32⟩
  | .hbm, ⟨42, _⟩ => ⟨S128x128, .f32⟩
  | .hbm, ⟨43, _⟩ => ⟨S128x128, .f32⟩
  | .hbm, ⟨44, _⟩ => ⟨S128x128, .bf16⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S128x128, .f32⟩
  | .hbm, ⟨67, _⟩ => ⟨S128x128, .bf16⟩
  | .hbm, ⟨68, _⟩ => ⟨S1x128x128, .f32⟩
  | .hbm, ⟨69, _⟩ => ⟨S128x128, .f32⟩
  | .hbm, ⟨70, _⟩ => ⟨S128x128, .f32⟩
  | .hbm, ⟨71, _⟩ => ⟨S128x128, .bf16⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .f32⟩
  | .hbm, ⟨86, _⟩ => ⟨S50000x128, .f32⟩
  | .hbm, ⟨87, _⟩ => ⟨S600000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S128x128, .f32⟩
  | .hbm, ⟨94, _⟩ => ⟨S128x128, .bf16⟩
  | .hbm, ⟨95, _⟩ => ⟨S1x128x128, .f32⟩
  | .hbm, ⟨96, _⟩ => ⟨S128x128, .f32⟩
  | .hbm, ⟨97, _⟩ => ⟨S128x128, .f32⟩
  | .hbm, ⟨98, _⟩ => ⟨S128x128, .bf16⟩
  | .hbm, ⟨99, _⟩ => ⟨S1x128, .f32⟩
  | .hbm, ⟨100, _⟩ => ⟨S128, .f32⟩
  | .hbm, ⟨101, _⟩ => ⟨S1x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S1x128, .f32⟩
  | .local _ .vmem, ⟨24, _⟩ => ⟨S128x128, .bf16⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bitsLt_bf16_f32 : FTy.bits .bf16 < FTy.bits .f32
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S1x128x128, .f32⟩
  | .hbm, ⟨47, _⟩ => ⟨S128x128, .f32⟩
  | .hbm, ⟨48, _⟩ => ⟨S128x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S_, .f32⟩
  | .hbm, ⟨96, _⟩ => ⟨S50000x128, .f32⟩
  | .hbm, ⟨97, _⟩ => ⟨S600000x1, .i32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128x128, .f32⟩
  | .hbm, ⟨102, _⟩ => ⟨S128x128, .f32⟩
  | .hbm, ⟨103, _⟩ => ⟨S128x128, .f32⟩
  | .hbm, ⟨104, _⟩ => ⟨S50000x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128x128, .f32⟩
  | .hbm, ⟨111, _⟩ => ⟨S128x128, .f32⟩
  | .hbm, ⟨112, _⟩ => ⟨S128x128, .f32⟩
  | .hbm, ⟨113, _⟩ => ⟨S50000x128, .f32⟩
  | .hbm, ⟨114, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_cst : Ref sig .tc := ⟨.hbm, 51, rfl⟩
abbrev main_call0_v0 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call1_cst : Ref sig .tc := ⟨.hbm, 83, rfl⟩
abbrev main_call1_v0 : Ref sig .tc := ⟨.hbm, 84, rfl⟩
abbrev main_v66 : Ref sig .tc := ⟨.hbm, 85, rfl⟩
abbrev main_c_8 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its RESULT array named.

  The program is three pipelined regions between stretches of host operations. Every weakly fair execution ends with
  each unscoped buffer holding the last boundary's contents: the fold, through the three stretches and the three
  regions' write-backs, of the launch memory. Read at the result buffer this names what the program returns; read at an
  argument it gives the argument back, since no stretch and no region writes one.
-/
import proofs.«147675_j7327214207545_1_alg».proof.Proof.Gen.KernelIdeal.Frame

set_option maxRecDepth 16384

noncomputable section

namespace Cert.KernelIdeal.SageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the five argument arrays as launched. -/
theorem run_named : θ_run defs (onTc (τ := τ) (main (F := F))) ⟨m, fun _ => 0, ρ⟩ (fun r => ∀ c : Dev nD,
      r.2.mem ((c.tc : Thread nD τ).loc main_v84) = W6 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v84 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.SageRun

end
-- ==== Proof.SageSpec.lean ====
/-
  One layer of a three-layer mean-aggregation graph network, entry by entry, over the extended reals.

  A layer takes the node features h (N rows of 128), their neighbourhood means agg (the same shape), two 128 × 128
  weight matrices wl and wr, already transposed for a product from the right, and a bias row b of 128 entries. Its
  value at row p and column q is

      sum over k of agg(p, k) · wl(k, q)  +  sum over k of h(p, k) · wr(k, q)  +  b(q),

  followed, in the first two layers, by the rectifier max(·, 0). The number of rows is a parameter, so that the
  same formula reads a block of rows and the whole array.
-/
import Idealize.ShloMosaic.Lib.ValueIdx
import Idealize.ShloMosaic.PureOps.Ideal

noncomputable section

namespace Cert.Sage

open Idealize.ShloMosaic Idealize.ShloMosaic.ValueIdx

/-- The layer's value at row `p`, column `q`, before the rectifier. -/
def affineAt {M : Nat} (agg h : (⟨2, ![M, 128]⟩ : Shape).Idx → EReal) (wl wr : (⟨2, ![128, 128]⟩ : Shape).Idx → EReal)
    (b : (⟨1, ![128]⟩ : Shape).Idx → EReal) (p : Fin M) (q : Fin 128) : EReal :=
  (∑ k : Fin 128, agg (ix2 p k) * wl (ix2 k q) + ∑ k : Fin 128, h (ix2 p k) * wr (ix2 k q)) + b (ix1 q)

/-- The layer before the rectifier, as an array. -/
def affine {M : Nat} (agg h : (⟨2, ![M, 128]⟩ : Shape).Idx → EReal) (wl wr : (⟨2, ![128, 128]⟩ : Shape).Idx → EReal)
    (b : (⟨1, ![128]⟩ : Shape).Idx → EReal) : (⟨2, ![M, 128]⟩ : Shape).Idx → EReal :=
  fun i => affineAt agg h wl wr b (i 0) (i 1)

/-- The rectifier, entry by entry: the larger of the entry and the number the zero word denotes. -/
def rectify {M : Nat} (v : (⟨2, ![M, 128]⟩ : Shape).Idx → EReal) : (⟨2, ![M, 128]⟩ : Shape).Idx → EReal :=
  fun i => max (v i) (Ideal.ofBits .f32 0x00000000#32)

theorem affine_ix2 {M : Nat} (agg h : (⟨2, ![M, 128]⟩ : Shape).Idx → EReal) (wl wr : (⟨2, ![128, 128]⟩ : Shape).Idx → EReal)
    (b : (⟨1, ![128]⟩ : Shape).Idx → EReal) (p : Fin M) (q : Fin 128) :
    affine agg h wl wr b (ix2 p q) = affineAt agg h wl wr b p q := rfl

theorem rectify_apply {M : Nat} (v : (⟨2, ![M, 128]⟩ : Shape).Idx → EReal) (i : (⟨2, ![M, 128]⟩ : Shape).Idx) :
    rectify v i = max (v i) (Ideal.ofBits .f32 0x00000000#32) := rfl

/-- Adding the bias before or after the second product is the same sum: addition of extended reals is commutative and
    associative, infinite terms included. -/
theorem bias_between (a c d : EReal) : (a + d) + c = (a + c) + d := add_right_comm a d c

end Cert.Sage

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KernelPayload.lean ====
/-
  What the kernel body stores, as a function of the five blocks it loads, entry by entry.

  The body loads a block of 5000 rows of the neighbourhood means and of the features, the two weight matrices and the
  one-row bias, forms the two matrix products into zero accumulators, adds them, adds the bias row laid down every row,
  and — in the first two layers — takes the larger of that and zero. Over the extended reals a change of float format
  is the identity and a product into a zero accumulator is the plain sum over the 128 shared positions, so what is
  stored is the (rectified) affine step of the loaded blocks.
-/
import proofs.«147675_j7327214207545_1_alg».proof.Proof.Gen.KernelIdeal.Skeleton
import proofs.«147675_j7327214207545_1_alg».proof.Proof.SageSpec
import proofs.«147675_j7327214207545_1_alg».proof.Proof.LibPlainDot
import Idealize.ShloMosaic.Lib.Pipeline.Value
import Idealize.ShloMosaic.Lib.ValueLayout

noncomputable section

namespace Cert.Sage

open Idealize.ShloMosaic Idealize.ShloMosaic.ValueIdx
open Cert.KernelIdeal Cert.KernelIdeal.Gen

/-- The one row of a [1, 128] array as a vector of 128 entries. -/
def rowOf (x : (⟨2, ![1, 128]⟩ : Shape).Idx → EReal) : (⟨1, ![128]⟩ : Shape).Idx → EReal :=
  fun i => x (ix2 (0 : Fin 1) (i 0))

/-- A block product as the body forms it — the left block narrowed in format, both operands cast to their own shapes,
    accumulated into zero — read at (p, q): the sum over k of left(p, k) · right(k, q). -/
theorem blockProduct_apply (x : FVec Ideal S5000x128 .f32) (w : FVec Ideal S128x128 .bf16)
    (h1 : S5000x128.ShapeCasts S5000x128) (h2 : FTy.bits .bf16 < FTy.bits .f32) (h3 : S128x128.ShapeCasts S128x128)
    (p : Fin 5000) (q : Fin 128) :
    matmul dot_S5000x128_S128x128_S5000x128_1_0_0_1_n_n none (truncf .bf16 (shapeCast S5000x128 x h1) h2) (shapeCast S128x128 w h3)
        (constant (F := Ideal) S5000x128 .f32 0x00000000#32) (ix2 p q)
      = ∑ k : Fin 128, x (ix2 p k) * w (ix2 k q) := by
  rw [shapeCast_self, shapeCast_self]
  exact Cert.Lib.matmul_zero_apply (M := 5000) (K := 128) (N := 128) dot_S5000x128_S128x128_S5000x128_1_0_0_1_n_n_wf none
    (truncf .bf16 x h2) w p q

/-- The same when the left block is narrowed without a cast first. -/
theorem blockProduct_apply' (x : FVec Ideal S5000x128 .f32) (w : FVec Ideal S128x128 .bf16)
    (h2 : FTy.bits .bf16 < FTy.bits .f32) (h3 : S128x128.ShapeCasts S128x128)
    (p : Fin 5000) (q : Fin 128) :
    matmul dot_S5000x128_S128x128_S5000x128_1_0_0_1_n_n none (truncf .bf16 x h2) (shapeCast S128x128 w h3)
        (constant (F := Ideal) S5000x128 .f32 0x00000000#32) (ix2 p q)
      = ∑ k : Fin 128, x (ix2 p k) * w (ix2 k q) := by
  rw [shapeCast_self]
  exact Cert.Lib.matmul_zero_apply (M := 5000) (K := 128) (N := 128) dot_S5000x128_S128x128_S5000x128_1_0_0_1_n_n_wf none
    (truncf .bf16 x h2) w p q

/-- The bias row, cast to its own shape and laid down the 5000 rows, read at (p, q): the row at q. -/
theorem biasBlock_apply (b : FVec Ideal S1x128 .f32) (h1 : S1x128.ShapeCasts S1x128) (h2 : S1x128.Broadcasts S5000x128)
    (p : Fin 5000) (q : Fin 128) :
    broadcastTo S5000x128 (shapeCast S1x128 b h1) h2 (ix2 p q) = rowOf b (ix1 q) := by
  rw [shapeCast_self]
  exact broadcastTo_1b_ab_apply (a := 5000) (b := 128) b h2 p q

/-- Two affine steps agree at a pair of positions once their five operands agree on the entries the step reads there:
    row p of the two row operands, column q of the two weight matrices, and the bias at q. -/
theorem affineAt_congr {M M' : Nat} (x0 x1 : (⟨2, ![M, 128]⟩ : Shape).Idx → EReal) (a h : (⟨2, ![M', 128]⟩ : Shape).Idx → EReal)
    (x2 x4 wl wr : (⟨2, ![128, 128]⟩ : Shape).Idx → EReal) (x3 b : (⟨2, ![1, 128]⟩ : Shape).Idx → EReal)
    (p : Fin M) (p' : Fin M') (q q' : Fin 128)
    (h0 : ∀ k : Fin 128, x0 (ix2 p k) = a (ix2 p' k)) (h1 : ∀ k : Fin 128, x1 (ix2 p k) = h (ix2 p' k))
    (h2 : ∀ k : Fin 128, x2 (ix2 k q) = wl (ix2 k q')) (h4 : ∀ k : Fin 128, x4 (ix2 k q) = wr (ix2 k q'))
    (h3 : x3 (ix2 (0 : Fin 1) q) = b (ix2 (0 : Fin 1) q')) :
    affineAt x0 x1 x2 x4 (rowOf x3) p q = affineAt a h wl wr (rowOf b) p' q' := by
  unfold affineAt
  have s1 : ∑ k : Fin 128, x0 (ix2 p k) * x2 (ix2 k q) = ∑ k : Fin 128, a (ix2 p' k) * wl (ix2 k q') :=
    Finset.sum_congr rfl fun k _ => by rw [h0 k, h2 k]
  have s2 : ∑ k : Fin 128, x1 (ix2 p k) * x4 (ix2 k q) = ∑ k : Fin 128, h (ix2 p' k) * wr (ix2 k q') :=
    Finset.sum_congr rfl fun k _ => by rw [h1 k, h4 k]
  rw [s1, s2]
  exact congrArg _ h3

/-- THE FIRST LAYER'S STORE: the rectified affine step of the loaded blocks. -/
theorem pay0_eq (x0 x1 : Vec Ideal S5000x128 .f32) (x2 x4 : Vec Ideal S128x128 .bf16) (x3 : Vec Ideal S1x128 .f32) :
    k0_pay1 x0 x1 x2 x4 x3 = rectify (affine x0 x1 x2 x4 (rowOf x3)) := by
  funext j
  obtain ⟨p, q, rfl⟩ : ∃ (p : Fin 5000) (q : Fin 128), j = ix2 p q := ⟨j 0, j 1, eq_ix2 j⟩
  unfold k0_pay1
  rw [maximumf_apply, addf_apply, addf_apply, broadcast_apply, blockProduct_apply, blockProduct_apply', biasBlock_apply]
  rfl

/-- THE SECOND LAYER'S STORE: the same. -/
theorem pay1_eq (x0 x1 : Vec Ideal S5000x128 .f32) (x2 x4 : Vec Ideal S128x128 .bf16) (x3 : Vec Ideal S1x128 .f32) :
    k1_pay1 x0 x1 x2 x4 x3 = rectify (affine x0 x1 x2 x4 (rowOf x3)) := by
  funext j
  obtain ⟨p, q, rfl⟩ : ∃ (p : Fin 5000) (q : Fin 128), j = ix2 p q := ⟨j 0, j 1, eq_ix2 j⟩
  unfold k1_pay1
  rw [maximumf_apply, addf_apply, addf_apply, broadcast_apply, blockProduct_apply, blockProduct_apply, biasBlock_apply]
  rfl

/-- THE THIRD LAYER'S STORE: the affine step, not rectified. -/
theorem pay2_eq (x0 x1 : Vec Ideal S5000x128 .f32) (x2 x4 : Vec Ideal S128x128 .bf16) (x3 : Vec Ideal S1x128 .f32) :
    k2_pay1 x0 x1 x2 x4 x3 = affine x0 x1 x2 x4 (rowOf x3) := by
  funext j
  obtain ⟨p, q, rfl⟩ : ∃ (p : Fin 5000) (q : Fin 128), j = ix2 p q := ⟨j 0, j 1, eq_ix2 j⟩
  unfold k2_pay1
  rw [addf_apply, addf_apply, blockProduct_apply, blockProduct_apply, biasBlock_apply]
  rfl

end Cert.Sage

end
-- ==== Proof.KernelBlocks0.lean ====
/-
  The first region's result array, as one function of the five arrays the region finds.

  The grid has ten points. Point t reads rows 5000·t … 5000·t + 4999 of the neighbourhood means and of the features, the
  whole of both weight matrices and of the bias row, and writes back rows 5000·t … 5000·t + 4999 of the result. What it
  writes is the rectified affine step of its blocks, and an entry of that step at a row depends on the same row of the
  two row operands only; so the block written back is the block of the rectified affine step of the WHOLE arrays. The
  ten blocks cover the 50000 rows, hence the array ends holding that function, whatever the arrays were on entry.
-/
import proofs.«147675_j7327214207545_1_alg».proof.Proof.Gen.KernelIdeal.Frame
import proofs.«147675_j7327214207545_1_alg».proof.Proof.KernelPayload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the ten points: the two row operands move with the result's row block, the
    weights and the bias stay at block (0, 0), and the result has one column block. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- The array the region leaves: the rectified affine step of the arrays it finds. -/
abbrev whole (c : Dev nD) : S50000x128.Idx → EReal :=
  rectify (affine (V c main_v24) (V c main_arg0) (V c main_v28) (V c main_v32) (rowOf (V c main_v35)))

set_option maxHeartbeats 1000000 in
/-- WHAT POINT t WRITES BACK is block t of `whole`. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [pay0_eq]
  obtain ⟨e0, e1, e2, e3, e4, e5, e6, e7, e8, e9, e10, e11⟩ := index_facts t
  funext j
  show max (affineAt (iblk0 V c 0 t) (iblk0 V c 1 t) (iblk0 V c 2 t) (iblk0 V c 4 t) (rowOf (iblk0 V c 3 t)) (j 0) (j 1)) _
    = max (affineAt (V c main_v24) (V c main_arg0) (V c main_v28) (V c main_v32) (rowOf (V c main_v35))
        ((((cfg0.win 5).blk t).view.emb j) 0) ((((cfg0.win 5).blk t).view.emb j) 1)) _
  refine congrArg (fun z => max z (Ideal.ofBits .f32 0x00000000#32)) ?_
  refine affineAt_congr (iblk0 V c 0 t) (iblk0 V c 1 t) (V c main_v24) (V c main_arg0) (iblk0 V c 2 t) (iblk0 V c 4 t)
    (V c main_v28) (V c main_v32) (iblk0 V c 3 t) (V c main_v35) (j 0) ((((cfg0.win 5).blk t).view.emb j) 0) (j 1)
    ((((cfg0.win 5).blk t).view.emb j) 1) (fun k => ?_) (fun k => ?_) (fun k => ?_) (fun k => ?_) ?_
  · show V c main_v24 (((cfg0.win 0).blk t).view.emb (ix2 (j 0) k)) = V c main_v24 (ix2 ((((cfg0.win 5).blk t).view.emb j) 0) k)
    refine congrArg (V c main_v24) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_v28 (((cfg0.win 2).blk t).view.emb (ix2 k (j 1))) = V c main_v28 (ix2 k ((((cfg0.win 5).blk t).view.emb j) 1))
    refine congrArg (V c main_v28) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_v32 (((cfg0.win 4).blk t).view.emb (ix2 k (j 1))) = V c main_v32 (ix2 k ((((cfg0.win 5).blk t).view.emb j) 1))
    refine congrArg (V c main_v32) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · show V c main_v35 (((cfg0.win 3).blk t).view.emb (ix2 (0 : Fin 1) (j 1))) = V c main_v35 (ix2 (0 : Fin 1) ((((cfg0.win 5).blk t).view.emb j) 1))
    refine congrArg (V c main_v35) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the result array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v36).slice (win0_5.rect t)).set ↔ _
  rw [View.set_slice_whole, Rect.mem_set_unit]
  exact Iff.rfl

/-- Every index of the result array is in the block of the point that owns its row: row r belongs to point r / 5000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY AFTER THE REGION is `whole`. -/
theorem final (c : Dev nD) : (dat0 V c).arrAt 5 cfg0.N = whole V c :=
  (dat0 V c).arrAt_eq_of_cover 5 (whole V c) (fun t _ => flushed_eq V c t) covered

end Cert.Sage.Region0

end
-- ==== Proof.KernelBlocks1.lean ====
/-
  The second region's result array, as one function of the five arrays the region finds.

  The grid has ten points. Point t reads rows 5000·t … 5000·t + 4999 of the neighbourhood means and of the features, the
  whole of both weight matrices and of the bias row, and writes back rows 5000·t … 5000·t + 4999 of the result. What it
  writes is the rectified affine step of its blocks, and an entry of that step at a row depends on the same row of the
  two row operands only; so the block written back is the block of the rectified affine step of the WHOLE arrays. The
  ten blocks cover the 50000 rows, hence the array ends holding that function, whatever the arrays were on entry.
-/
import proofs.«147675_j7327214207545_1_alg».proof.Proof.Gen.KernelIdeal.Frame
import proofs.«147675_j7327214207545_1_alg».proof.Proof.KernelPayload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the ten points: the two row operands move with the result's row block, the
    weights and the bias stay at block (0, 0), and the result has one column block. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- The array the region leaves: the rectified affine step of the arrays it finds. -/
abbrev whole (c : Dev nD) : S50000x128.Idx → EReal :=
  rectify (affine (V c main_v48) (V c main_v36) (V c main_v52) (V c main_v56) (rowOf (V c main_v59)))

set_option maxHeartbeats 1000000 in
/-- WHAT POINT t WRITES BACK is block t of `whole`. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [pay1_eq]
  obtain ⟨e0, e1, e2, e3, e4, e5, e6, e7, e8, e9, e10, e11⟩ := index_facts t
  funext j
  show max (affineAt (iblk1 V c 0 t) (iblk1 V c 1 t) (iblk1 V c 2 t) (iblk1 V c 4 t) (rowOf (iblk1 V c 3 t)) (j 0) (j 1)) _
    = max (affineAt (V c main_v48) (V c main_v36) (V c main_v52) (V c main_v56) (rowOf (V c main_v59))
        ((((cfg1.win 5).blk t).view.emb j) 0) ((((cfg1.win 5).blk t).view.emb j) 1)) _
  refine congrArg (fun z => max z (Ideal.ofBits .f32 0x00000000#32)) ?_
  refine affineAt_congr (iblk1 V c 0 t) (iblk1 V c 1 t) (V c main_v48) (V c main_v36) (iblk1 V c 2 t) (iblk1 V c 4 t)
    (V c main_v52) (V c main_v56) (iblk1 V c 3 t) (V c main_v59) (j 0) ((((cfg1.win 5).blk t).view.emb j) 0) (j 1)
    ((((cfg1.win 5).blk t).view.emb j) 1) (fun k => ?_) (fun k => ?_) (fun k => ?_) (fun k => ?_) ?_
  · show V c main_v48 (((cfg1.win 0).blk t).view.emb (ix2 (j 0) k)) = V c main_v48 (ix2 ((((cfg1.win 5).blk t).view.emb j) 0) k)
    refine congrArg (V c main_v48) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v36 (((cfg1.win 1).blk t).view.emb (ix2 (j 0) k)) = V c main_v36 (ix2 ((((cfg1.win 5).blk t).view.emb j) 0) k)
    refine congrArg (V c main_v36) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v52 (((cfg1.win 2).blk t).view.emb (ix2 k (j 1))) = V c main_v52 (ix2 k ((((cfg1.win 5).blk t).view.emb j) 1))
    refine congrArg (V c main_v52) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show V c main_v56 (((cfg1.win 4).blk t).view.emb (ix2 k (j 1))) = V c main_v56 (ix2 k ((((cfg1.win 5).blk t).view.emb j) 1))
    refine congrArg (V c main_v56) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · show V c main_v59 (((cfg1.win 3).blk t).view.emb (ix2 (0 : Fin 1) (j 1))) = V c main_v59 (ix2 (0 : Fin 1) ((((cfg1.win 5).blk t).view.emb j) 1))
    refine congrArg (V c main_v59) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the result array is in point t's block iff each coordinate is in the block's range on its axis. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v60).slice (win1_5.rect t)).set ↔ _
  rw [View.set_slice_whole, Rect.mem_set_unit]
  exact Iff.rfl

/-- Every index of the result array is in the block of the point that owns its row: row r belongs to point r / 5000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY AFTER THE REGION is `whole`. -/
theorem final (c : Dev nD) : (dat1 V c).arrAt 5 cfg1.N = whole V c :=
  (dat1 V c).arrAt_eq_of_cover 5 (whole V c) (fun t _ => flushed_eq V c t) covered

end Cert.Sage.Region1

end
-- ==== Proof.KernelBlocks2.lean ====
/-
  The third region's result array, as one function of the five arrays the region finds.

  The grid has ten points. Point t reads rows 5000·t … 5000·t + 4999 of the neighbourhood means and of the features, the
  whole of both weight matrices and of the bias row, and writes back rows 5000·t … 5000·t + 4999 of the result. What it
  writes is the affine step of its blocks (the last layer has no rectifier), and an entry of that step at a row depends on the same row of the
  two row operands only; so the block written back is the block of the affine step of the WHOLE arrays. The
  ten blocks cover the 50000 rows, hence the array ends holding that function, whatever the arrays were on entry.
-/
import proofs.«147675_j7327214207545_1_alg».proof.Proof.Gen.KernelIdeal.Frame
import proofs.«147675_j7327214207545_1_alg».proof.Proof.KernelPayload
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the ten points: the two row operands move with the result's row block, the
    weights and the bias stay at block (0, 0), and the result has one column block. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem index_onto : ∀ q0 : Fin 10, ∃ t : Fin cfg2.N, win2_5.index t = ![q0.val, 0] :=
  (by decide +kernel : ∀ q0 : Fin 10, ∃ t : Fin grid2.N, win2_5.index t = ![q0.val, 0])

/-- The array the region leaves: the affine step of the arrays it finds. -/
abbrev whole (c : Dev nD) : S50000x128.Idx → EReal :=
  affine (V c main_v72) (V c main_v60) (V c main_v76) (V c main_v80) (rowOf (V c main_v83))

set_option maxHeartbeats 1000000 in
/-- WHAT POINT t WRITES BACK is block t of `whole`. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  rw [pay2_eq]
  obtain ⟨e0, e1, e2, e3, e4, e5, e6, e7, e8, e9, e10, e11⟩ := index_facts t
  funext j
  show affineAt (iblk2 V c 0 t) (iblk2 V c 1 t) (iblk2 V c 2 t) (iblk2 V c 4 t) (rowOf (iblk2 V c 3 t)) (j 0) (j 1)
    = affineAt (V c main_v72) (V c main_v60) (V c main_v76) (V c main_v80) (rowOf (V c main_v83))
        ((((cfg2.win 5).blk t).view.emb j) 0) ((((cfg2.win 5).blk t).view.emb j) 1)
  refine affineAt_congr (iblk2 V c 0 t) (iblk2 V c 1 t) (V c main_v72) (V c main_v60) (iblk2 V c 2 t) (iblk2 V c 4 t)
    (V c main_v76) (V c main_v80) (iblk2 V c 3 t) (V c main_v83) (j 0) ((((cfg2.win 5).blk t).view.emb j) 0) (j 1)
    ((((cfg2.win 5).blk t).view.emb j) 1) (fun k => ?_) (fun k => ?_) (fun k => ?_) (fun k => ?_) ?_
  · show V c main_v72 (((cfg2.win 0).blk t).view.emb (ix2 (j 0) k)) = V c main_v72 (ix2 ((((cfg2.win 5).blk t).view.emb j) 0) k)
    refine congrArg (V c main_v72) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v60 (((cfg2.win 1).blk t).view.emb (ix2 (j 0) k)) = V c main_v60 (ix2 ((((cfg2.win 5).blk t).view.emb j) 0) k)
    refine congrArg (V c main_v60) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_v76 (((cfg2.win 2).blk t).view.emb (ix2 k (j 1))) = V c main_v76 (ix2 k ((((cfg2.win 5).blk t).view.emb j) 1))
    refine congrArg (V c main_v76) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  · show V c main_v80 (((cfg2.win 4).blk t).view.emb (ix2 k (j 1))) = V c main_v80 (ix2 k ((((cfg2.win 5).blk t).view.emb j) 1))
    refine congrArg (V c main_v80) (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_5.index t (1 : Fin 2) * 128 + 1 * (j 1).val; omega
  · show V c main_v83 (((cfg2.win 3).blk t).view.emb (ix2 (0 : Fin 1) (j 1))) = V c main_v83 (ix2 (0 : Fin 1) ((((cfg2.win 5).blk t).view.emb j) 1))
    refine congrArg (V c main_v83) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega

/-- An index of the result array is in point t's block iff each coordinate is in the block's range on its axis. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v84).slice (win2_5.rect t)).set ↔ _
  rw [View.set_slice_whole, Rect.mem_set_unit]
  exact Iff.rfl

/-- Every index of the result array is in the block of the point that owns its row: row r belongs to point r / 5000. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY AFTER THE REGION is `whole`. -/
theorem final (c : Dev nD) : (dat2 V c).arrAt 5 cfg2.N = whole V c :=
  (dat2 V c).arrAt_eq_of_cover 5 (whole V c) (fun t _ => flushed_eq V c t) covered

end Cert.Sage.Region2

end
-- ==== Proof.MeanOf.lean ====
/-
  The neighbourhood mean of node features, as one function.

  Given features h (50000 rows of 128), the source and destination node of each of 600000 edges, and the reciprocal
  in-degree of every node as a column, the mean gathers the source row of every edge (a negative source index first
  wrapped by adding the node count), adds the gathered rows up per destination node starting from zero, and scales each
  node's sum by its reciprocal in-degree. The reference spells this recipe three times, once per layer, and so does the
  kernel's host code; here it is spelt once, and the reference's first spelling is shown to be it.
-/
import proofs.«147675_j7327214207545_1_alg».proof.Proof.Gen.ReferenceIdeal.Read

noncomputable section

namespace Cert.Sage

open Idealize.ShloMosaic
open Cert.ReferenceIdeal Cert.ReferenceIdeal.Gen Cert.ReferenceIdeal.Read

/-- Gather the source rows, add them up per destination from zero, scale by the reciprocal in-degree. -/
def meanOf (h : (⟨S50000x128, .f32⟩ : BufTy).Contents (Elt Ideal)) (src dst : (⟨S600000, .i32⟩ : BufTy).Contents (Elt Ideal))
    (inv : (⟨S50000x1, .f32⟩ : BufTy).Contents (Elt Ideal)) : (⟨S50000x128, .f32⟩ : BufTy).Contents (Elt Ideal) :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 inv)

/-- The reference's first spelling of the recipe, as a function of the features and the edge list, is `meanOf` of the
    features and of the edge list's source row, destination row and reciprocal in-degrees. -/
theorem val_v24_eq_meanOf (x0 : (⟨S50000x128, .f32⟩ : BufTy).Contents (Elt Ideal)) (x1 : (⟨S2x600000, .i32⟩ : BufTy).Contents (Elt Ideal)) :
    val_main_v24 x0 x1 = meanOf x0 (val_main_v1 x1) (val_main_v3 x1) (val_main_v12 x1) := rfl

end Cert.Sage

end
-- ==== Proof.KernelStretches.lean ====
/-
  The kernel program's three stretches of host operations, read at the buffers the regions and the later stretches use.

  Each stretch is a straight line of operations over buffers; what a buffer holds after the line is the composition of
  the operations that lead to it, applied to what the line found in the buffers it reads, and a buffer the line does not
  write keeps its contents. The first stretch computes, from the arguments, the edge list's two rows, the reciprocal
  in-degrees, the neighbourhood means of the input features and the first layer's weights and bias; the second and third
  compute the neighbourhood means of the previous region's result and the next layer's weights and bias. The results are
  named by the reference's own stages where the reference computes the same thing: a transposed weight slice (the
  kernel's narrowing of its format is the identity on extended reals), a bias slice, the edge rows, the reciprocal
  in-degrees, and the neighbourhood-mean recipe.
-/
import proofs.«147675_j7327214207545_1_alg».proof.Proof.Gen.KernelIdeal.Launch
import proofs.«147675_j7327214207545_1_alg».proof.Proof.MeanOf
import Idealize.ShloMosaic.Lib.StableHlo.Run

noncomputable section

namespace Cert.Sage

open Idealize.ShloMosaic Idealize.ShloMosaic.TcCoe Idealize.SL.Sem Idealize.ShloMosaic.StableHlo
open Cert.KernelIdeal Cert.KernelIdeal.Gen

variable (W : Valuation τ sig (Elt Ideal))

/-! ## The first stretch -/

set_option maxHeartbeats 2000000 in
theorem first_src : StableHlo.after (hostOps0 (F := Ideal)) W (Proc.devRef .tc main_v1)
    = Cert.ReferenceIdeal.Read.val_main_v1 (F := Ideal) (W (Proc.devRef .tc main_arg1)) := by
  after_results_simp <;> rfl
set_option maxHeartbeats 2000000 in
theorem first_dst : StableHlo.after (hostOps0 (F := Ideal)) W (Proc.devRef .tc main_v3)
    = Cert.ReferenceIdeal.Read.val_main_v3 (F := Ideal) (W (Proc.devRef .tc main_arg1)) := by
  after_results_simp <;> rfl
set_option maxHeartbeats 2000000 in
theorem first_inv : StableHlo.after (hostOps0 (F := Ideal)) W (Proc.devRef .tc main_v12)
    = Cert.ReferenceIdeal.Read.val_main_v12 (F := Ideal) (W (Proc.devRef .tc main_arg1)) := by
  after_results_simp <;> rfl
set_option maxHeartbeats 2000000 in
theorem first_mean : StableHlo.after (hostOps0 (F := Ideal)) W (Proc.devRef .tc main_v24)
    = Cert.ReferenceIdeal.Read.val_main_v24 (F := Ideal) (W (Proc.devRef .tc main_arg0)) (W (Proc.devRef .tc main_arg1)) := by
  after_results_simp <;> rfl
set_option maxHeartbeats 2000000 in
theorem first_wl : StableHlo.after (hostOps0 (F := Ideal)) W (Proc.devRef .tc main_v28)
    = Cert.ReferenceIdeal.Read.val_main_v27 (F := Ideal) (W (Proc.devRef .tc main_arg2)) := by
  after_results_simp <;> rfl
set_option maxHeartbeats 2000000 in
theorem first_wr : StableHlo.after (hostOps0 (F := Ideal)) W (Proc.devRef .tc main_v32)
    = Cert.ReferenceIdeal.Read.val_main_v36 (F := Ideal) (W (Proc.devRef .tc main_arg4)) := by
  after_results_simp <;> rfl
set_option maxHeartbeats 2000000 in
theorem first_bias : StableHlo.after (hostOps0 (F := Ideal)) W (Proc.devRef .tc main_v35)
    = shapeCast S1x128 (Cert.ReferenceIdeal.Read.val_main_v30 (F := Ideal) (W (Proc.devRef .tc main_arg3))) shapeCasts_S128_S1x128 := by
  after_results_simp <;> rfl
set_option maxHeartbeats 2000000 in
theorem first_keeps_arg0 : StableHlo.after (hostOps0 (F := Ideal)) W (Proc.devRef .tc main_arg0) = W (Proc.devRef .tc main_arg0) := by
  after_results_simp <;> rfl
set_option maxHeartbeats 2000000 in
theorem first_keeps_arg1 : StableHlo.after (hostOps0 (F := Ideal)) W (Proc.devRef .tc main_arg1) = W (Proc.devRef .tc main_arg1) := by
  after_results_simp <;> rfl
set_option maxHeartbeats 2000000 in
theorem first_keeps_arg2 : StableHlo.after (hostOps0 (F := Ideal)) W (Proc.devRef .tc main_arg2) = W (Proc.devRef .tc main_arg2) := by
  after_results_simp <;> rfl
set_option maxHeartbeats 2000000 in
theorem first_keeps_arg3 : StableHlo.after (hostOps0 (F := Ideal)) W (Proc.devRef .tc main_arg3) = W (Proc.devRef .tc main_arg3) := by
  after_results_simp <;> rfl
set_option maxHeartbeats 2000000 in
theorem first_keeps_arg4 : StableHlo.after (hostOps0 (F := Ideal)) W (Proc.devRef .tc main_arg4) = W (Proc.devRef .tc main_arg4) := by
  after_results_simp <;> rfl

/-! ## The second stretch -/

set_option maxHeartbeats 2000000 in
theorem second_mean : StableHlo.after (hostOps1 (F := Ideal)) W (Proc.devRef .tc main_v48)
    = meanOf (W (Proc.devRef .tc main_v36)) (W (Proc.devRef .tc main_v1)) (W (Proc.devRef .tc main_v3)) (W (Proc.devRef .tc main_v12)) := by
  after_results_simp <;> rfl
set_option maxHeartbeats 2000000 in
theorem second_wl : StableHlo.after (hostOps1 (F := Ideal)) W (Proc.devRef .tc main_v52)
    = Cert.ReferenceIdeal.Read.val_main_v54 (F := Ideal) (W (Proc.devRef .tc main_arg2)) := by
  after_results_simp <;> rfl
set_option maxHeartbeats 2000000 in
theorem second_wr : StableHlo.after (hostOps1 (F := Ideal)) W (Proc.devRef .tc main_v56)
    = Cert.ReferenceIdeal.Read.val_main_v63 (F := Ideal) (W (Proc.devRef .tc main_arg4)) := by
  after_results_simp <;> rfl
set_option maxHeartbeats 2000000 in
theorem second_bias : StableHlo.after (hostOps1 (F := Ideal)) W (Proc.devRef .tc main_v59)
    = shapeCast S1x128 (Cert.ReferenceIdeal.Read.val_main_v57 (F := Ideal) (W (Proc.devRef .tc main_arg3))) shapeCasts_S128_S1x128 := by
  after_results_simp <;> rfl
set_option maxHeartbeats 2000000 in
theorem second_keeps (b : Ref sig .tc)
    (hb : b = main_v36 ∨ b = main_v1 ∨ b = main_v3 ∨ b = main_v12 ∨ b = main_arg2 ∨ b = main_arg3 ∨ b = main_arg4) :
    StableHlo.after (hostOps1 (F := Ideal)) W (Proc.devRef .tc b) = W (Proc.devRef .tc b) := by
  rcases hb with rfl | rfl | rfl | rfl | rfl | rfl | rfl <;> (after_results_simp <;> rfl)

/-! ## The third stretch -/

set_option maxHeartbeats 2000000 in
theorem third_mean : StableHlo.after (hostOps2 (F := Ideal)) W (Proc.devRef .tc main_v72)
    = meanOf (W (Proc.devRef .tc main_v60)) (W (Proc.devRef .tc main_v1)) (W (Proc.devRef .tc main_v3)) (W (Proc.devRef .tc main_v12)) := by
  after_results_simp <;> rfl
set_option maxHeartbeats 2000000 in
theorem third_wl : StableHlo.after (hostOps2 (F := Ideal)) W (Proc.devRef .tc main_v76)
    = Cert.ReferenceIdeal.Read.val_main_v81 (F := Ideal) (W (Proc.devRef .tc main_arg2)) := by
  after_results_simp <;> rfl
set_option maxHeartbeats 2000000 in
theorem third_wr : StableHlo.after (hostOps2 (F := Ideal)) W (Proc.devRef .tc main_v80)
    = Cert.ReferenceIdeal.Read.val_main_v90 (F := Ideal) (W (Proc.devRef .tc main_arg4)) := by
  after_results_simp <;> rfl
set_option maxHeartbeats 2000000 in
theorem third_bias : StableHlo.after (hostOps2 (F := Ideal)) W (Proc.devRef .tc main_v83)
    = shapeCast S1x128 (Cert.ReferenceIdeal.Read.val_main_v84 (F := Ideal) (W (Proc.devRef .tc main_arg3))) shapeCasts_S128_S1x128 := by
  after_results_simp <;> rfl
set_option maxHeartbeats 2000000 in
theorem third_keeps_h : StableHlo.after (hostOps2 (F := Ideal)) W (Proc.devRef .tc main_v60) = W (Proc.devRef .tc main_v60) := by
  after_results_simp <;> rfl

end Cert.Sage

end
-- ==== Proof.RefLayers.lean ====
/-
  The reference program, layer by layer, is the three-layer formula.

  Its host operations compute, per layer, the product of the neighbourhood means with the first weight matrix, add the
  bias laid along every row, and add the product of the features with the second weight matrix; the first two layers
  end in the rectifier. Entry by entry that is the affine step with the bias added between the two products instead of
  after them, which is the same extended real. The neighbourhood means, the transposed weight matrices and the bias
  rows are kept as the reference's own stages of the arguments: what matters here is only which arrays a layer reads.
-/
import proofs.«147675_j7327214207545_1_alg».proof.Proof.Gen.ReferenceIdeal.Read
import proofs.«147675_j7327214207545_1_alg».proof.Proof.SageSpec
import proofs.«147675_j7327214207545_1_alg».proof.Proof.LibPlainDot
import Idealize.ShloMosaic.Lib.KernelVsHost

noncomputable section

namespace Cert.Sage

open Idealize.ShloMosaic Idealize.ShloMosaic.ValueIdx
open Cert.ReferenceIdeal Cert.ReferenceIdeal.Gen Cert.ReferenceIdeal.Read

/-- The bias vector laid along one row and that row laid down every row, read at (p, q), is the vector at q. -/
theorem biasRows_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_oneRow_apply (m := 50000) (n := 128) bcast_S1x128_S50000x128_0_1 _ p q).trans ?_
  refine broadcastInDim_apply ![1] bcast_S128_S1x128_1 b (ix2 (0 : Fin 1) q) (ix1 q) fun a => ?_
  match a with
  | ⟨0, _⟩ => show q.val = if (128 : Nat) = 1 then 0 else q.val; rw [if_neg (by decide)]

/-- THE HOST'S LAYER IS THE AFFINE STEP: the two host products are the two sums over k, the doubly broadcast bias is
    the bias at the column, and the bias moves past the second sum. -/
theorem hostLayer_eq (agg h : FVec Ideal S50000x128 .f32) (wl wr : FVec Ideal S128x128 .f32) (b : FVec Ideal S128 .f32) :
    addf (addf (Host.dotGeneral dot_S50000x128_S128x128_S50000x128_1_0_0_1_n_n none agg wl)
        (broadcastInDim S50000x128 ![0, 1] bcast_S1x128_S50000x128_0_1 (broadcastInDim S1x128 ![1] bcast_S128_S1x128_1 b)))
      (Host.dotGeneral dot_S50000x128_S128x128_S50000x128_1_0_0_1_n_n none h wr)
    = affine agg h wl wr b := by
  funext j
  obtain ⟨p, q, rfl⟩ : ∃ (p : Fin 50000) (q : Fin 128), j = ix2 p q := ⟨j 0, j 1, eq_ix2 j⟩
  have e1 : Host.dotGeneral dot_S50000x128_S128x128_S50000x128_1_0_0_1_n_n none agg wl (ix2 p q)
      = ∑ k : Fin 128, agg (ix2 p k) * wl (ix2 k q) :=
    Cert.Lib.dotGeneral_plain_apply (M := 50000) (K := 128) (N := 128) dot_S50000x128_S128x128_S50000x128_1_0_0_1_n_n_wf none _ agg wl p q
  have e2 : Host.dotGeneral dot_S50000x128_S128x128_S50000x128_1_0_0_1_n_n none h wr (ix2 p q)
      = ∑ k : Fin 128, h (ix2 p k) * wr (ix2 k q) :=
    Cert.Lib.dotGeneral_plain_apply (M := 50000) (K := 128) (N := 128) dot_S50000x128_S128x128_S50000x128_1_0_0_1_n_n_wf none _ h wr p q
  show (Host.dotGeneral dot_S50000x128_S128x128_S50000x128_1_0_0_1_n_n none agg wl (ix2 p q)
        + broadcastInDim S50000x128 ![0, 1] bcast_S1x128_S50000x128_0_1 (broadcastInDim S1x128 ![1] bcast_S128_S1x128_1 b) (ix2 p q))
      + Host.dotGeneral dot_S50000x128_S128x128_S50000x128_1_0_0_1_n_n none h wr (ix2 p q) = affineAt agg h wl wr b p q
  rw [e1, e2, biasRows_apply b p q]
  exact bias_between _ _ _

/-- The host's rectifier — the larger of an array and the broadcast zero constant, entry by entry — is `rectify`. -/
theorem hostRelu_eq (v : FVec Ideal S50000x128 .f32) :
    maximumf v (broadcastInDim S50000x128 ![] bcast_S_S50000x128 (constant (F := Ideal) S_ .f32 0x00000000#32)) = rectify v := by
  funext i; rfl

/-! ## The three layers as functions of the five arguments -/

section
variable (x0 : (⟨S50000x128, .f32⟩ : BufTy).Contents (Elt Ideal)) (x1 : (⟨S2x600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal))

/-- The features after the first layer: the rectified affine step of the input features and their neighbourhood means
    (`val_main_v24`: gather the source rows, add them up per destination, scale by the reciprocal in-degree). -/
def hidden1 : (⟨S50000x128, .f32⟩ : BufTy).Contents (Elt Ideal) :=
  rectify (affine (val_main_v24 x0 x1) x0 (val_main_v27 x2) (val_main_v36 x4) (val_main_v30 x3))

/-- The features after the second layer: the same of the first layer's features, with the second slices of the
    weights and the bias. -/
def hidden2 : (⟨S50000x128, .f32⟩ : BufTy).Contents (Elt Ideal) :=
  rectify (affine (val_main_v24 (hidden1 x0 x1 x2 x3 x4) x1) (hidden1 x0 x1 x2 x3 x4) (val_main_v54 x2) (val_main_v63 x4) (val_main_v57 x3))

/-- The network's result: the third layer, which has no rectifier. -/
def result : (⟨S50000x128, .f32⟩ : BufTy).Contents (Elt Ideal) :=
  affine (val_main_v24 (hidden2 x0 x1 x2 x3 x4) x1) (hidden2 x0 x1 x2 x3 x4) (val_main_v81 x2) (val_main_v90 x4) (val_main_v84 x3)

theorem ref_layer1 : val_main_v39 x0 x1 x2 x3 x4 = hidden1 x0 x1 x2 x3 x4 := by
  have e : val_main_v38 x0 x1 x2 x3 x4 = affine (val_main_v24 x0 x1) x0 (val_main_v27 x2) (val_main_v36 x4) (val_main_v30 x3) :=
    hostLayer_eq _ _ _ _ _
  show maximumf (val_main_v38 x0 x1 x2 x3 x4) _ = _
  rw [e]
  exact hostRelu_eq _

/-- The second layer's neighbourhood means are the first layer's recipe applied to the first layer's features: the
    index fix-up, the gather, the scatter and the scaling are spelt again, operation for operation. -/
theorem ref_agg2 : val_main_v51 x0 x1 x2 x3 x4 = val_main_v24 (val_main_v39 x0 x1 x2 x3 x4) x1 := rfl

theorem ref_layer2 : val_main_v66 x0 x1 x2 x3 x4 = hidden2 x0 x1 x2 x3 x4 := by
  have e : val_main_v65 x0 x1 x2 x3 x4
      = affine (val_main_v51 x0 x1 x2 x3 x4) (val_main_v39 x0 x1 x2 x3 x4) (val_main_v54 x2) (val_main_v63 x4) (val_main_v57 x3) :=
    hostLayer_eq _ _ _ _ _
  show maximumf (val_main_v65 x0 x1 x2 x3 x4) _ = _
  rw [e, ref_agg2, ref_layer1]
  exact hostRelu_eq _

theorem ref_agg3 : val_main_v78 x0 x1 x2 x3 x4 = val_main_v24 (val_main_v66 x0 x1 x2 x3 x4) x1 := rfl

/-- THE REFERENCE'S RESULT is the three-layer formula of the arguments. -/
theorem ref_result : val_main_v92 x0 x1 x2 x3 x4 = result x0 x1 x2 x3 x4 := by
  have e : val_main_v92 x0 x1 x2 x3 x4
      = affine (val_main_v78 x0 x1 x2 x3 x4) (val_main_v66 x0 x1 x2 x3 x4) (val_main_v81 x2) (val_main_v90 x4) (val_main_v84 x3) :=
    hostLayer_eq _ _ _ _ _
  rw [e, ref_agg3, ref_layer2]
  rfl

end

end Cert.Sage

end
-- ==== Proof.KernelChain.lean ====
/-
  The kernel program's result buffer holds the three-layer formula of the launch memory's arguments.

  The program's buffers are followed from the launch through its six segments. The first stretch of host operations
  leaves the edge list's rows, the reciprocal in-degrees, the neighbourhood means of the input features and the first
  layer's weights and bias; the first region leaves the first layer's features, since its result array is the rectified
  affine step of what it finds; the second stretch leaves the neighbourhood means of those features and the second
  layer's weights and bias, the edge rows and the in-degrees being untouched by the region and the stretch; and so on
  through the second and the third region, whose result array is the program's result. What is carried from one boundary
  to the next — the edge rows, the reciprocal in-degrees and the last three arguments — is carried because neither a
  region's windows nor a stretch's operations write those buffers.
-/
import proofs.«147675_j7327214207545_1_alg».proof.Proof.Gen.KernelIdeal.Frame
import proofs.«147675_j7327214207545_1_alg».proof.Proof.KernelBlocks0
import proofs.«147675_j7327214207545_1_alg».proof.Proof.KernelBlocks1
import proofs.«147675_j7327214207545_1_alg».proof.Proof.KernelBlocks2
import proofs.«147675_j7327214207545_1_alg».proof.Proof.KernelStretches
import proofs.«147675_j7327214207545_1_alg».proof.Proof.RefLayers
import Idealize.ShloMosaic.Lib.ValueLayout

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

/-- A vector of 128 entries cast to one row, and that row read back as a vector, is the vector. -/
theorem rowOf_cast (b : (⟨1, ![128]⟩ : Shape).Idx → EReal) (h : (⟨1, ![128]⟩ : Shape).ShapeCasts ⟨2, ![1, 128]⟩) :
    rowOf (shapeCast ⟨2, ![1, 128]⟩ b h) = b := by
  funext i
  obtain ⟨q, rfl⟩ : ∃ q : Fin 128, i = ix1 q := ⟨i 0, eq_ix1 i⟩
  exact shapeCast_a_1a_apply b h (0 : Fin 1) q

variable (m : (ℓ : Loc nD τ sig) → Buf (Elt Ideal) ℓ) (ρ : Dev nD → PrngReg) (c : Dev nD)

/-- What every boundary after the first stretch holds beside the layer's own operands: the edge list's source and
    destination rows and the reciprocal in-degrees, as the reference's stages of the edge-list argument, and the two weight
    arguments and the bias argument as launched. -/
structure Carried (W : Valuation τ sig (Elt Ideal)) : Prop where
  src : W (Proc.devRef .tc main_v1) = Cert.ReferenceIdeal.Read.val_main_v1 (F := Ideal) (m ((c.tc : Thread nD τ).loc main_arg1))
  dst : W (Proc.devRef .tc main_v3) = Cert.ReferenceIdeal.Read.val_main_v3 (F := Ideal) (m ((c.tc : Thread nD τ).loc main_arg1))
  inv : W (Proc.devRef .tc main_v12) = Cert.ReferenceIdeal.Read.val_main_v12 (F := Ideal) (m ((c.tc : Thread nD τ).loc main_arg1))
  wl : W (Proc.devRef .tc main_arg2) = m ((c.tc : Thread nD τ).loc main_arg2)
  bl : W (Proc.devRef .tc main_arg3) = m ((c.tc : Thread nD τ).loc main_arg3)
  wr : W (Proc.devRef .tc main_arg4) = m ((c.tc : Thread nD τ).loc main_arg4)

/-! ## After the first stretch, and the first region -/

theorem carried1 : Carried m c (W1 m ρ c) :=
  ⟨first_src (W0 m ρ c), first_dst (W0 m ρ c), first_inv (W0 m ρ c), first_keeps_arg2 (W0 m ρ c), first_keeps_arg3 (W0 m ρ c),
    first_keeps_arg4 (W0 m ρ c)⟩

/-- The first region's result: the first layer's features. -/
theorem after_region0 : W2 m ρ c (Proc.devRef .tc main_v36)
    = hidden1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W2_arr m ρ c 5).trans ((Region0.final (V1 m ρ) c).trans ?_)
  have e24 : V1 m ρ c main_v24 = Cert.ReferenceIdeal.Read.val_main_v24 (F := Ideal) (m ((c.tc : Thread nD τ).loc main_arg0)) (m ((c.tc : Thread nD τ).loc main_arg1)) :=
    first_mean (W0 m ρ c)
  have e0 : V1 m ρ c main_arg0 = m ((c.tc : Thread nD τ).loc main_arg0) := first_keeps_arg0 (W0 m ρ c)
  have e28 : V1 m ρ c main_v28 = Cert.ReferenceIdeal.Read.val_main_v27 (F := Ideal) (m ((c.tc : Thread nD τ).loc main_arg2)) := first_wl (W0 m ρ c)
  have e32 : V1 m ρ c main_v32 = Cert.ReferenceIdeal.Read.val_main_v36 (F := Ideal) (m ((c.tc : Thread nD τ).loc main_arg4)) := first_wr (W0 m ρ c)
  have e35 : V1 m ρ c main_v35 = shapeCast S1x128 (Cert.ReferenceIdeal.Read.val_main_v30 (F := Ideal) (m ((c.tc : Thread nD τ).loc main_arg3))) shapeCasts_S128_S1x128 :=
    first_bias (W0 m ρ c)
  show rectify (affine (V1 m ρ c main_v24) (V1 m ρ c main_arg0) (V1 m ρ c main_v28) (V1 m ρ c main_v32) (rowOf (V1 m ρ c main_v35))) = _
  rw [e24, e0, e28, e32, e35, rowOf_cast]
  rfl

theorem carried2 : Carried m c (W2 m ρ c) :=
  have h := carried1 m ρ c
  ⟨(W2_of_ne m ρ c main_v1 (by decide)).trans h.src, (W2_of_ne m ρ c main_v3 (by decide)).trans h.dst,
    (W2_of_ne m ρ c main_v12 (by decide)).trans h.inv, (W2_of_ne m ρ c main_arg2 (by decide)).trans h.wl,
    (W2_of_ne m ρ c main_arg3 (by decide)).trans h.bl, (W2_of_ne m ρ c main_arg4 (by decide)).trans h.wr⟩

/-! ## After the second stretch, and the second region -/

theorem carried3 : Carried m c (W3 m ρ c) :=
  have h := carried2 m ρ c
  ⟨(second_keeps (W2 m ρ c) main_v1 (by simp)).trans h.src, (second_keeps (W2 m ρ c) main_v3 (by simp)).trans h.dst,
    (second_keeps (W2 m ρ c) main_v12 (by simp)).trans h.inv, (second_keeps (W2 m ρ c) main_arg2 (by simp)).trans h.wl,
    (second_keeps (W2 m ρ c) main_arg3 (by simp)).trans h.bl, (second_keeps (W2 m ρ c) main_arg4 (by simp)).trans h.wr⟩

/-- The second region's result: the second layer's features. -/
theorem after_region1 : W4 m ρ c (Proc.devRef .tc main_v60)
    = hidden2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W4_arr m ρ c 5).trans ((Region1.final (V3 m ρ) c).trans ?_)
  have h := carried2 m ρ c
  have e36 : V3 m ρ c main_v36 = hidden1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
    (second_keeps (W2 m ρ c) main_v36 (Or.inl rfl)).trans (after_region0 m ρ c)
  have e48 : V3 m ρ c main_v48 = Cert.ReferenceIdeal.Read.val_main_v24 (F := Ideal)
        (hidden1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg1)) := by
    refine (second_mean (W2 m ρ c)).trans ?_
    rw [after_region0 m ρ c, h.src, h.dst, h.inv]
    exact (val_v24_eq_meanOf _ _).symm
  have e52 : V3 m ρ c main_v52 = Cert.ReferenceIdeal.Read.val_main_v54 (F := Ideal) (m ((c.tc : Thread nD τ).loc main_arg2)) :=
    (second_wl (W2 m ρ c)).trans (congrArg _ h.wl)
  have e56 : V3 m ρ c main_v56 = Cert.ReferenceIdeal.Read.val_main_v63 (F := Ideal) (m ((c.tc : Thread nD τ).loc main_arg4)) :=
    (second_wr (W2 m ρ c)).trans (congrArg _ h.wr)
  have e59 : V3 m ρ c main_v59 = shapeCast S1x128 (Cert.ReferenceIdeal.Read.val_main_v57 (F := Ideal) (m ((c.tc : Thread nD τ).loc main_arg3))) shapeCasts_S128_S1x128 :=
    (second_bias (W2 m ρ c)).trans (congrArg (fun x => shapeCast S1x128 (Cert.ReferenceIdeal.Read.val_main_v57 (F := Ideal) x) shapeCasts_S128_S1x128) h.bl)
  show rectify (affine (V3 m ρ c main_v48) (V3 m ρ c main_v36) (V3 m ρ c main_v52) (V3 m ρ c main_v56) (rowOf (V3 m ρ c main_v59))) = _
  rw [e48, e36, e52, e56, e59, rowOf_cast]
  rfl

theorem carried4 : Carried m c (W4 m ρ c) :=
  have h := carried3 m ρ c
  ⟨(W4_of_ne m ρ c main_v1 (by decide)).trans h.src, (W4_of_ne m ρ c main_v3 (by decide)).trans h.dst,
    (W4_of_ne m ρ c main_v12 (by decide)).trans h.inv, (W4_of_ne m ρ c main_arg2 (by decide)).trans h.wl,
    (W4_of_ne m ρ c main_arg3 (by decide)).trans h.bl, (W4_of_ne m ρ c main_arg4 (by decide)).trans h.wr⟩

/-! ## After the third stretch, and the third region -/

/-- THE PROGRAM'S RESULT BUFFER at the last boundary: the three-layer formula of the launch memory's arguments. -/
theorem kernel_result : W6 m ρ c (Proc.devRef .tc main_v84)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W6_arr m ρ c 5).trans ((Region2.final (V5 m ρ) c).trans ?_)
  have h := carried4 m ρ c
  have e60 : V5 m ρ c main_v60 = hidden2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
    (third_keeps_h (W4 m ρ c)).trans (after_region1 m ρ c)
  have e72 : V5 m ρ c main_v72 = Cert.ReferenceIdeal.Read.val_main_v24 (F := Ideal)
        (hidden2 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg1)) := by
    refine (third_mean (W4 m ρ c)).trans ?_
    rw [after_region1 m ρ c, h.src, h.dst, h.inv]
    exact (val_v24_eq_meanOf _ _).symm
  have e76 : V5 m ρ c main_v76 = Cert.ReferenceIdeal.Read.val_main_v81 (F := Ideal) (m ((c.tc : Thread nD τ).loc main_arg2)) :=
    (third_wl (W4 m ρ c)).trans (congrArg _ h.wl)
  have e80 : V5 m ρ c main_v80 = Cert.ReferenceIdeal.Read.val_main_v90 (F := Ideal) (m ((c.tc : Thread nD τ).loc main_arg4)) :=
    (third_wr (W4 m ρ c)).trans (congrArg _ h.wr)
  have e83 : V5 m ρ c main_v83 = shapeCast S1x128 (Cert.ReferenceIdeal.Read.val_main_v84 (F := Ideal) (m ((c.tc : Thread nD τ).loc main_arg3))) shapeCasts_S128_S1x128 :=
    (third_bias (W4 m ρ c)).trans (congrArg (fun x => shapeCast S1x128 (Cert.ReferenceIdeal.Read.val_main_v84 (F := Ideal) x) shapeCasts_S128_S1x128) h.bl)
  show affine (V5 m ρ c main_v72) (V5 m ρ c main_v60) (V5 m ρ c main_v76) (V5 m ρ c main_v80) (rowOf (V5 m ρ c main_v83)) = _
  rw [e72, e60, e76, e80, e83, rowOf_cast]
  rfl

end Cert.Sage

end
-- ==== Proof.lean ====
/-
  A three-layer mean-aggregation graph network on 50000 nodes with 128 features and 600000 edges: the kernel program
  against its reference, over the extended reals.

  Both programs compute, from the features x, the edge list, and three slices each of two weight arrays and a bias array,

      h₁ = max(mean(x)·Wl₀ᵀ + x·Wr₀ᵀ + b₀, 0),   h₂ = max(mean(h₁)·Wl₁ᵀ + h₁·Wr₁ᵀ + b₁, 0),   out = mean(h₂)·Wl₂ᵀ + h₂·Wr₂ᵀ + b₂,

  where mean(h) gathers the source row of every edge, adds the rows up per destination node and divides by the node's
  in-degree (at least one). The two programs spell mean(·), the transposed weight slices and the bias slices with the
  same host operations. They differ in the layer itself: the reference forms the two products and the sums on the host,
  adding the bias between the two products; the kernel program runs each layer as a pipelined region over ten blocks of
  5000 rows whose body narrows its operands' format, forms the two products into zero accumulators on the matrix unit,
  and adds the bias last. Over the extended reals a change of format is the identity, a product into a zero accumulator
  is the plain sum over the 128 shared positions, and addition is commutative and associative at the infinities too, so
  no finiteness of the inputs is used: both programs end at one function of the arguments.

  The three run claims: the kernel program at both instances by its generated frame; the reference by its generated run.
  The idealization rewrote nothing, so there is nothing to preserve. The value claim: the kernel program's run with its
  result named at the last boundary's contents, those contents followed through the six segments to the three-layer
  formula; the reference's run, its result stage by stage the same formula; the arguments agree by hypothesis.
-/
import proofs.«147675_j7327214207545_1_alg».proof.Defs
import proofs.«147675_j7327214207545_1_alg».proof.Proof.Gen.Kernel
import proofs.«147675_j7327214207545_1_alg».proof.Proof.Gen.Kernel.Skeleton
import proofs.«147675_j7327214207545_1_alg».proof.Proof.Gen.Kernel.Launch
import proofs.«147675_j7327214207545_1_alg».proof.Proof.Gen.Kernel.Points
import proofs.«147675_j7327214207545_1_alg».proof.Proof.Gen.Kernel.Frame
import proofs.«147675_j7327214207545_1_alg».proof.Proof.Gen.KernelIdeal
import proofs.«147675_j7327214207545_1_alg».proof.Proof.Gen.KernelIdeal.Skeleton
import proofs.«147675_j7327214207545_1_alg».proof.Proof.Gen.KernelIdeal.Launch
import proofs.«147675_j7327214207545_1_alg».proof.Proof.Gen.KernelIdeal.Points
import proofs.«147675_j7327214207545_1_alg».proof.Proof.Gen.KernelIdeal.Frame
import proofs.«147675_j7327214207545_1_alg».proof.Proof.Gen.ReferenceIdeal
import proofs.«147675_j7327214207545_1_alg».proof.Proof.Gen.ReferenceIdeal.Run
import proofs.«147675_j7327214207545_1_alg».proof.Proof.Gen.ReferenceIdeal.Read
import proofs.«147675_j7327214207545_1_alg».proof.Proof.Gen.Pre_finite_inputs
import proofs.«147675_j7327214207545_1_alg».proof.Proof.KernelRun
import proofs.«147675_j7327214207545_1_alg».proof.Proof.KernelChain
import proofs.«147675_j7327214207545_1_alg».proof.Proof.RefLayers
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs, and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the three-layer formula of those arguments
    in their result buffers, and with the arguments unchanged. -/
theorem algebraic : Cert.algebraic_KernelIdeal_ReferenceIdeal := by
  intro m ρ m' ρ' _ hagree
  refine ⟨fun c => Cert.Sage.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Sage.kernel_result m ρ c), (h c).2⟩)
      (Cert.KernelIdeal.SageRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq, Cert.Sage.ref_result, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
